-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : FVec F S4096x8192 .f32) (main_arg2 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S4096x8192 .f32 := Host.absf main_arg2
  let main_cst_2 : FVec F S_ .f32 := constant S_ .f32 0x7F800000#32
  let main_v10 : FVec F S4096x8192 .f32 := broadcastInDim S4096x8192 ![] bcast_S_S4096x8192 main_cst_2
  let main_v11 : IVec S4096x8192 1 := cmpf .olt main_v9 main_v10
  let main_c_3 : IVec S_ 1 := constantI S_ 1 1#1
  let main_v12 : IVec S_ 1 := (fun x v => Host.reduce IntOp.andi x v reducesTo_S4096x8192_S_d0_1 h_S_) main_v11 main_c_3
  let main_v13 : IVec S_ 1 := andi main_v8 main_v12
  main_v13
-- ==== Kernel.lean ====
abbrev S4096x8192 : Shape := ⟨2, ![4096, 8192]⟩
abbrev S4096x1 : Shape := ⟨2, ![4096, 1]⟩
abbrev S256x8192 : Shape := ⟨2, ![256, 8192]⟩
abbrev S256x1 : Shape := ⟨2, ![256, 1]⟩
abbrev S256 : Shape := ⟨1, ![256]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x8192, .f32⟩
  | .hbm, ⟨3, _⟩ => ⟨S4096x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S256x8192, .f32⟩
  | .local _ .vmem, ⟨5, _⟩ => ⟨S256x8192, .f32⟩
  | .local _ .vmem, ⟨6, _⟩ => ⟨S256x1, .f32⟩
  | .local _ .vmem, ⟨7, _⟩ => ⟨S256x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .f32 = 32 ∨ (Rect.block (s := S4096x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S4096x8192.size a
  hwx0_2 : ∀ i : grid0.Coords, EltTy.bits .f32 = 32 ∨ (Rect.block (s := S4096x8192) S256x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩
abbrev S4096 : Shape := ⟨1, ![4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096, .f32⟩
  | .hbm, ⟨10, _⟩ => ⟨S4096x8192, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  reducesTo_S4096x8192_S4096_d1 : S4096x8192.ReducesTo [1] S4096
  h_S_ : 0 < S_.numel
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.GaussianLoss.lean ====
/-
  The mean negative log-likelihood of a diagonal Gaussian, on the extended reals.

  For one sample the density's exponent and normalisation give, entry by entry, the term
  (y - μ)² / σ + log σ.  Two programs are compared: one adds the two parts of the term first and sums once over the
  features, then takes 1/2 · (c + mean over the samples); the other sums the quotients and the logarithms separately,
  forms -1/2 · (c + Σ log σ + Σ quotient) per sample, averages, and negates.

  Splitting a sum of sums is a law of any commutative monoid, so the per-sample parts agree with no hypothesis.  The outer
  step moves a negative factor through a sum, which on the extended reals fails exactly when +∞ and -∞ meet.  It is
  saved by one fact: for real μ, σ, y the term is never +∞.  For σ > 0 it is a real number; for σ = 0 the logarithm is
  -∞ and absorbs whatever the quotient is; for σ < 0 the quotient is real and the logarithm's value is -∞ again.  So a
  sample's total is a real number or -∞, and then either every total is real and the identity is one of real numbers, or
  some total is -∞ and both sides are -∞.
-/
import Idealize.ShloMosaic.PureOps.Ideal
import Mathlib

noncomputable section

namespace Cert.GaussianLoss

open Idealize.ShloMosaic

/-- One entry's contribution: the squared deviation over the variance, plus the variance's logarithm. -/
def term (u s y : EReal) : EReal := Ideal.div ((y - u) * (y - u)) s + Ideal.log s

/-- For real mean, variance and observation the contribution is never +∞. -/
theorem term_ne_top (u s y : ℝ) : term (u : EReal) (s : EReal) (y : EReal) ≠ ⊤ := by
  unfold term
  rw [Ideal.log_coe]
  by_cases hs : s ≤ 0
  · rw [if_pos hs, EReal.add_bot]
    exact bot_ne_top
  · rw [if_neg hs]
    have hs0 : s ≠ 0 := fun h => hs (h ▸ le_refl _)
    rw [Ideal.div_coe hs0, ← EReal.coe_sub, ← EReal.coe_mul, ← EReal.coe_mul, ← EReal.coe_add]
    exact EReal.coe_ne_top _

/-- A finite sum of extended reals none of which is +∞ is not +∞. -/
theorem sum_ne_top {ι : Type*} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact EReal.add_ne_top (h a (Finset.mem_insert_self a s)) (ih fun i hi => h i (Finset.mem_insert_of_mem hi))

/-- A finite sum with a -∞ among its terms is -∞, whatever the others are. -/
theorem sum_eq_bot {ι : Type*} (s : Finset ι) (f : ι → EReal) {a : ι} (ha : a ∈ s) (hb : f a = ⊥) : ∑ i ∈ s, f i = ⊥ := by
  classical
  rw [← Finset.add_sum_erase s f ha, hb, EReal.bot_add]

/-- A finite sum none of whose terms is -∞ is not -∞. -/
theorem sum_ne_bot {ι : Type*} (s : Finset ι) (f : ι → EReal) (h : ∀ i ∈ s, f i ≠ ⊥) : ∑ i ∈ s, f i ≠ ⊥ := by
  classical
  induction s using Finset.induction_on with
  | empty => simp
  | insert a s ha ih =>
    rw [Finset.sum_insert ha]
    exact EReal.add_ne_bot_iff.2 ⟨h a (Finset.mem_insert_self a s), ih fun i hi => h i (Finset.mem_insert_of_mem hi)⟩

/-- A finite sum with a +∞ among its terms and no -∞ is +∞. -/
theorem sum_eq_top {ι : Type*} (s : Finset ι) (f : ι → EReal) {a : ι} (ha : a ∈ s) (ht : f a = ⊤)
    (h : ∀ i ∈ s, f i ≠ ⊥) : ∑ i ∈ s, f i = ⊤ := by
  classical
  rw [← Finset.add_sum_erase s f ha, ht]
  exact EReal.top_add_of_ne_bot (sum_ne_bot _ f fun i hi => h i (Finset.mem_of_mem_erase hi))

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two ways of averaging agree when no sample's total is +∞: with n the number of samples,
    -((Σ_r -1/2 · (c + T r)) / n) = 1/2 · (c + (Σ_r T r) / n). -/
theorem mean_law {ι : Type*} [Fintype ι] (n c : ℝ) (hn : 0 < n) (hcard : (Fintype.card ι : ℝ) = n)
    (T : ι → EReal) (hT : ∀ r, T r ≠ ⊤) :
    -(Ideal.div (∑ r, ((-(1 / 2) : ℝ) : EReal) * ((c : EReal) + T r)) (n : EReal))
      = ((1 / 2 : ℝ) : EReal) * ((c : EReal) + Ideal.div (∑ r, T r) (n : EReal)) := by
  have hn0 : n ≠ 0 := ne_of_gt hn
  have hp : (0 : ℝ) < 1 / n := by positivity
  rw [Ideal.div_coe hn0, Ideal.div_coe hn0]
  by_cases hb : ∃ r, T r = ⊥
  · obtain ⟨r₀, hr₀⟩ := hb
    have h1 : ∑ r, T r = ⊥ := sum_eq_bot _ T (Finset.mem_univ r₀) hr₀
    have h2 : ∑ r, ((-(1 / 2) : ℝ) : EReal) * ((c : EReal) + T r) = ⊤ := by
      refine sum_eq_top _ _ (Finset.mem_univ r₀) ?_ fun r _ => ?_
      · rw [hr₀, EReal.add_bot]
        exact EReal.coe_mul_bot_of_neg (by norm_num)
      · have hne : (c : EReal) + T r ≠ ⊤ := EReal.add_ne_top (EReal.coe_ne_top c) (hT r)
        induction hx : (c : EReal) + T r using EReal.rec with
        | bot => rw [EReal.coe_mul_bot_of_neg (by norm_num)]; exact top_ne_bot
        | top => exact absurd hx hne
        | coe x => rw [← EReal.coe_mul]; exact EReal.coe_ne_bot _
    rw [h1, h2, EReal.top_mul_coe_of_pos hp, EReal.bot_mul_coe_of_pos hp, EReal.add_bot, EReal.neg_top,
      EReal.coe_mul_bot_of_pos (by norm_num)]
  · have hreal : ∀ r, ∃ t : ℝ, T r = (t : EReal) := fun r => by
      induction hx : T r using EReal.rec with
      | bot => exact absurd ⟨r, hx⟩ hb
      | top => exact absurd hx (hT r)
      | coe t => exact ⟨t, rfl⟩
    choose t ht using hreal
    simp only [ht, ← EReal.coe_add, ← EReal.coe_mul, ← coe_sum, ← EReal.coe_neg]
    congr 1
    have hsum : ∑ r, -(1 / 2) * (c + t r) = -(1 / 2) * (n * c + ∑ r, t r) := by
      rw [← Finset.mul_sum, Finset.sum_add_distrib, Finset.sum_const, Finset.card_univ, nsmul_eq_mul, hcard]
    rw [hsum]
    field_simp

end Cert.GaussianLoss

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.RowTotals.lean ====
/-
  One block of the kernel: a sample's total.

  The body loads a block of 256 samples by 8192 features of each of the three arrays (means, variances, observations),
  forms the term (y - μ)² / σ + log σ entry by entry, sums it along the features from zero, and stores the 256 totals as a
  column.  Read at row p of the column, whatever the unit coordinate, the stored value is the sum over the 8192
  features k of the term at (p, k).
-/
import proofs.«119276_j13700945674760_2_alg».proof.Proof.Gen.KernelIdeal.Skeleton
import proofs.«119276_j13700945674760_2_alg».proof.Proof.GaussianLoss
import proofs.«119276_j13700945674760_2_alg».proof.Proof.LibKeepdims
import Idealize.ShloMosaic.Lib.ValueIdx

noncomputable section

namespace Cert.KernelIdeal.RowTotals

open Idealize.ShloMosaic Idealize.ShloMosaic.ValueIdx Cert.KernelIdeal

/-- The stored column at row p is the sum over the features of the block's terms in that row. -/
theorem block_total (x0 x1 x2 : Vec Ideal S256x8192 .f32) (p : Fin 256) (u : Fin 1) :
    Gen.k0_pay1 (F := Ideal) x0 x1 x2 (ix2 p u)
      = ∑ k : Fin 8192, Cert.GaussianLoss.term (x0 (ix2 p k)) (x1 (ix2 p k)) (x2 (ix2 p k)) := by
  unfold Gen.k0_pay1
  refine (shapeCast_a_a1_apply _ _ p u).trans ?_
  refine (multiReduction_add_row _ _ _ _ _ p).trans ?_
  rfl

end Cert.KernelIdeal.RowTotals

end
-- ==== Proof.RegionValue.lean ====
/-
  The array the kernel's region leaves: every sample's total.

  The grid has 16 points; point t owns samples 256·t … 256·t + 255, reading those rows of the three argument arrays whole
  (all 8192 features) and writing those rows of the one-column result.  So the block a point writes back is that block
  of ONE function of the argument arrays, `totals`: at sample r, the sum over the features k of the term at (r, k).
  The 16 blocks tile the 4096 rows (sample r is in block r / 256), so the array ends holding `totals` everywhere.
-/
import proofs.«119276_j13700945674760_2_alg».proof.Proof.Gen.KernelIdeal.Frame
import proofs.«119276_j13700945674760_2_alg».proof.Proof.RowTotals
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Every sample's total, as a column: at sample r the sum over the features of the term. -/
def totals (mu sg y : S4096x8192.Idx → EReal) : S4096x1.Idx → EReal :=
  fun i => ∑ k : Fin 8192, Cert.GaussianLoss.term (mu (ix2 (i 0) k)) (sg (ix2 (i 0) k)) (y (ix2 (i 0) k))

theorem origin : (![0, 0] : Fin 2 → Nat) = fun _ => 0 := funext fun a => by fin_cases a <;> rfl

/-- The printed index maps over the grid: each input block and the output block sit at the same block of rows, and at
    column block zero. -/
theorem rows_agree : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = win0_3.index t (0 : Fin 2)
    ∧ win0_2.index t (1 : Fin 2) = 0
    ∧ win0_3.index t (1 : Fin 2) = 0 :=
  (by decide +kernel : ∀ t : Fin grid0.N, _)

/-- Every block of rows is some point's. -/
theorem rows_onto : ∀ q : Fin 16, ∃ t : Fin cfg0.N, win0_3.index t = ![q.val, 0] :=
  (by decide +kernel : ∀ q : Fin 16, ∃ t : Fin grid0.N, win0_3.index t = ![q.val, 0])

/-- What point t writes back is block t of `totals` of the argument arrays. -/
theorem flushed_eq (c : Dev nD) (t : Fin cfg0.N) :
    (dats m 0 c).flushed 3 t
      = ((cfg0.win 3).blk t).view.read (Elt Ideal) (totals (V m c main_arg0) (V m c main_arg1) (V m c main_arg2)) := by
  show (cfg0.win 3).cut (grid0.coords t) ((dats m 0 c).after 3 t) = _
  rw [after0_3]
  unfold out0_3
  rw [View.canon_unit_zero origin]
  simp only [View.ld_unit_zero (S := S256x8192) origin]
  obtain ⟨e00, e01, e10, e11, e20, e21, e31⟩ := rows_agree t
  funext j
  obtain ⟨p, u, rfl⟩ : ∃ (p : Fin 256) (u : Fin 1), j = ix2 p u := ⟨j 0, j 1, eq_ix2 j⟩
  refine (RowTotals.block_total (iblk m c 0 t) (iblk m c 1 t) (iblk m c 2 t) p u).trans ?_
  show _ = ∑ k : Fin 8192, Cert.GaussianLoss.term
      (V m c main_arg0 (ix2 ((((cfg0.win 3).blk t).view.emb (ix2 p u)) 0) k))
      (V m c main_arg1 (ix2 ((((cfg0.win 3).blk t).view.emb (ix2 p u)) 0) k))
      (V m c main_arg2 (ix2 ((((cfg0.win 3).blk t).view.emb (ix2 p u)) 0) k))
  refine Finset.sum_congr rfl fun k _ => ?_
  have h0 : ((cfg0.win 0).blk t).view.emb (ix2 p k) = ix2 ((((cfg0.win 3).blk t).view.emb (ix2 p u)) 0) k := by
    funext a; apply Fin.ext
    match a with
    | ⟨0, _⟩ => show win0_0.index t (0 : Fin 2) * 256 + 1 * p.val = win0_3.index t (0 : Fin 2) * 256 + 1 * p.val; omega
    | ⟨1, _⟩ => show win0_0.index t (1 : Fin 2) * 8192 + 1 * k.val = k.val; omega
  have h1 : ((cfg0.win 1).blk t).view.emb (ix2 p k) = ix2 ((((cfg0.win 3).blk t).view.emb (ix2 p u)) 0) k := by
    funext a; apply Fin.ext
    match a with
    | ⟨0, _⟩ => show win0_1.index t (0 : Fin 2) * 256 + 1 * p.val = win0_3.index t (0 : Fin 2) * 256 + 1 * p.val; omega
    | ⟨1, _⟩ => show win0_1.index t (1 : Fin 2) * 8192 + 1 * k.val = k.val; omega
  have h2 : ((cfg0.win 2).blk t).view.emb (ix2 p k) = ix2 ((((cfg0.win 3).blk t).view.emb (ix2 p u)) 0) k := by
    funext a; apply Fin.ext
    match a with
    | ⟨0, _⟩ => show win0_2.index t (0 : Fin 2) * 256 + 1 * p.val = win0_3.index t (0 : Fin 2) * 256 + 1 * p.val; omega
    | ⟨1, _⟩ => show win0_2.index t (1 : Fin 2) * 8192 + 1 * k.val = k.val; omega
  show Cert.GaussianLoss.term (V m c main_arg0 (((cfg0.win 0).blk t).view.emb (ix2 p k)))
      (V m c main_arg1 (((cfg0.win 1).blk t).view.emb (ix2 p k))) (V m c main_arg2 (((cfg0.win 2).blk t).view.emb (ix2 p k)))
    = Cert.GaussianLoss.term (V m c main_arg0 (ix2 ((((cfg0.win 3).blk t).view.emb (ix2 p u)) 0) k))
      (V m c main_arg1 (ix2 ((((cfg0.win 3).blk t).view.emb (ix2 p u)) 0) k))
      (V m c main_arg2 (ix2 ((((cfg0.win 3).blk t).view.emb (ix2 p u)) 0) k))
  rw [h0, h1, h2]
  rfl

/-- A sample is in point t's block iff each coordinate is in the block's range on its axis. -/
theorem mem_blk (t : Fin cfg0.N) (i : S4096x1.Idx) :
    i ∈ ((cfg0.win 3).blk t).view.set
      ↔ ∀ a : Fin 2, win0_3.index t a * S256x1.size a ≤ (i a).val ∧ (i a).val < win0_3.index t a * S256x1.size a + S256x1.size a := by
  show i ∈ ((View.whole main_v0).slice (win0_3.rect t)).set ↔ _
  rw [View.set_slice_whole, Rect.mem_set_unit]
  exact Iff.rfl

/-- Every sample is in the block of the point that owns its 256 rows. -/
theorem cover (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  obtain ⟨t, ht⟩ := rows_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1 ≤ (i 1).val ∧ (i 1).val < win0_3.index t (1 : Fin 2) * 1 + 1; omega

/-- The result array after the region: every sample's total of the argument arrays. -/
theorem region_result (c : Dev nD) :
    (dats m 0 c).arrAt 3 cfg0.N
      = totals (m ((c : Thread nD τ).loc main_arg0)) (m ((c : Thread nD τ).loc main_arg1)) (m ((c : Thread nD τ).loc main_arg2)) :=
  (dats m 0 c).arrAt_eq_of_cover 3 _ (fun t _ => flushed_eq m c t) cover

end Cert.KernelIdeal.RegionValue

end
-- ==== Proof.LossConstants.lean ====
/-
  The float constants of the loss, as real numbers.

  Both programs use the same words: 1/2 (and its negative), the number of samples 4096, the number of features 8192, and
  the single-precision value nearest 2π, of which only this matters: it is a positive real, so its logarithm is a real
  number and so is the constant c = 8192 · log(2π) that both programs add to every sample's total.
-/
import Idealize.ShloMosaic.PureOps.Ideal
import Idealize.ShloMosaic.PureOps.Ideal.Laws
import Mathlib

noncomputable section

namespace Cert.LossConstants

open Idealize.ShloMosaic

theorem half : Ideal.ofBits .f32 0x3F000000#32 = ((1 / 2 : ℝ) : EReal) := by
  simp [Ideal.ofBits, Ideal.ieee]
  rw [← EReal.coe_mul]
  norm_num

theorem neg_half : Ideal.ofBits .f32 0xBF000000#32 = ((-(1 / 2) : ℝ) : EReal) := by
  simp [Ideal.ofBits, Ideal.ieee]
  rw [← EReal.coe_mul]
  norm_num

theorem samples : Ideal.ofBits .f32 0x45800000#32 = ((4096 : ℝ) : EReal) := by
  simp [Ideal.ofBits, Ideal.ieee]
  rw [← EReal.coe_mul]
  norm_num

theorem features : Ideal.ofBits .f32 0x46000000#32 = ((8192 : ℝ) : EReal) := by
  simp [Ideal.ofBits, Ideal.ieee]
  rw [← EReal.coe_mul]
  norm_num

/-- The single-precision 2π is a positive real. -/
theorem two_pi_pos : ∃ r : ℝ, 0 < r ∧ Ideal.ofBits .f32 0x40C90FDB#32 = (r : EReal) := by
  refine ⟨13176795 * (2 ^ 21)⁻¹, by positivity, ?_⟩
  simp [Ideal.ofBits, Ideal.ieee]

/-- The normalisation constant 8192 · log(2π) is a real number. -/
theorem norm_const_real :
    ∃ c : ℝ, Ideal.ofBits .f32 0x46000000#32 * Ideal.log (Ideal.ofBits .f32 0x40C90FDB#32) = (c : EReal) := by
  obtain ⟨r, hr, e⟩ := two_pi_pos
  refine ⟨8192 * Real.log r, ?_⟩
  rw [features, e, Ideal.log_coe, if_neg (not_le.2 hr), ← EReal.coe_mul]

end Cert.LossConstants

end
-- ==== Proof.LossSpec.lean ====
/-
  The loss as one function of the three arrays, and the two arrangements that compute it.

  With T r = Σ_k term(μ(r,k), σ(r,k), y(r,k)) the total of sample r and c = 8192 · log(2π):

      loss = 1/2 · (c + (Σ_r T r) / 4096).

  One program computes exactly this from a zero start (`kernel_form`).  The other sums the logarithms and the quotients of
  a sample separately, each from a zero start, forms -1/2 · ((c + Σ_k log σ) + Σ_k quotient) per sample, sums those from
  zero, divides by 4096 and negates (`reference_form`).  The per-sample regrouping is associativity and commutativity of
  addition and the splitting of a sum of sums; the outer step is the mean law, which needs every total to be other than
  +∞ — true when the three arrays hold real numbers.
-/
import proofs.«119276_j13700945674760_2_alg».proof.Proof.GaussianLoss
import proofs.«119276_j13700945674760_2_alg».proof.Proof.LossConstants
import Idealize.ShloMosaic.Lib.ValueIdx

noncomputable section

namespace Cert.LossSpec

open Idealize.ShloMosaic Idealize.ShloMosaic.ValueIdx Cert.GaussianLoss

/-- Arrays of 4096 samples by 8192 features. -/
abbrev Table : Type := (⟨2, ![4096, 8192]⟩ : Shape).Idx → EReal

/-- The total of sample r. -/
def total (mu sg y : Table) (r : Fin 4096) : EReal :=
  ∑ k : Fin 8192, term (mu (ix2 r k)) (sg (ix2 r k)) (y (ix2 r k))

/-- The mean negative log-likelihood, as a rank-0 array. -/
def loss (mu sg y : Table) : (⟨0, ![]⟩ : Shape).Idx → EReal := fun _ =>
  ((1 / 2 : ℝ) : EReal) * (Ideal.ofBits .f32 0x46000000#32 * Ideal.log (Ideal.ofBits .f32 0x40C90FDB#32)
    + Ideal.div (∑ r : Fin 4096, total mu sg y r) ((4096 : ℝ) : EReal))

/-- A sample's total over real entries is never +∞. -/
theorem total_ne_top (mu sg y : Table) (hmu : ∀ i, ∃ r : ℝ, mu i = (r : EReal)) (hsg : ∀ i, ∃ r : ℝ, sg i = (r : EReal))
    (hy : ∀ i, ∃ r : ℝ, y i = (r : EReal)) (r : Fin 4096) : total mu sg y r ≠ ⊤ := by
  unfold total
  refine sum_ne_top _ _ fun k _ => ?_
  obtain ⟨a, ha⟩ := hmu (ix2 r k)
  obtain ⟨b, hb⟩ := hsg (ix2 r k)
  obtain ⟨d, hd⟩ := hy (ix2 r k)
  rw [ha, hb, hd]
  exact term_ne_top a b d

/-- The first arrangement: the constants as their words, the sum of the totals started from zero. -/
theorem kernel_form (mu sg y : Table) (i : (⟨0, ![]⟩ : Shape).Idx) :
    Ideal.ofBits .f32 0x3F000000#32 * (Ideal.ofBits .f32 0x46000000#32 * Ideal.log (Ideal.ofBits .f32 0x40C90FDB#32)
      + Ideal.div (Ideal.ofBits .f32 0x00000000#32 + ∑ r : Fin 4096, total mu sg y r) (Ideal.ofBits .f32 0x45800000#32))
      = loss mu sg y i := by
  unfold loss
  rw [LossConstants.half, LossConstants.samples, Ideal.ofBits_zero_f32, zero_add]

/-- The second arrangement equals the loss when the three arrays hold real numbers. -/
theorem reference_form (mu sg y : Table) (hmu : ∀ i, ∃ r : ℝ, mu i = (r : EReal)) (hsg : ∀ i, ∃ r : ℝ, sg i = (r : EReal))
    (hy : ∀ i, ∃ r : ℝ, y i = (r : EReal)) (i : (⟨0, ![]⟩ : Shape).Idx) :
    -(Ideal.div (Ideal.ofBits .f32 0x00000000#32 + ∑ r : Fin 4096, Ideal.ofBits .f32 0xBF000000#32
          * ((Ideal.ofBits .f32 0x46000000#32 * Ideal.log (Ideal.ofBits .f32 0x40C90FDB#32)
              + (Ideal.ofBits .f32 0x00000000#32 + ∑ k : Fin 8192, Ideal.log (sg (ix2 r k))))
            + (Ideal.ofBits .f32 0x00000000#32
              + ∑ k : Fin 8192, Ideal.div ((y (ix2 r k) - mu (ix2 r k)) * (y (ix2 r k) - mu (ix2 r k))) (sg (ix2 r k)))))
        (Ideal.ofBits .f32 0x45800000#32))
      = loss mu sg y i := by
  obtain ⟨c, hc⟩ := LossConstants.norm_const_real
  unfold loss
  simp only [hc, LossConstants.neg_half, LossConstants.samples, Ideal.ofBits_zero_f32, zero_add]
  have hrow : ∀ r : Fin 4096,
      ((c : EReal) + ∑ k : Fin 8192, Ideal.log (sg (ix2 r k)))
        + ∑ k : Fin 8192, Ideal.div ((y (ix2 r k) - mu (ix2 r k)) * (y (ix2 r k) - mu (ix2 r k))) (sg (ix2 r k))
      = (c : EReal) + total mu sg y r := by
    intro r
    unfold total
    rw [add_assoc, ← Finset.sum_add_distrib]
    refine congrArg (_ + ·) (Finset.sum_congr rfl fun k _ => ?_)
    exact add_comm _ _
  simp only [hrow]
  exact mean_law 4096 c (by norm_num) (by simp) _ (total_ne_top mu sg y hmu hsg hy)

end Cert.LossSpec

end
-- ==== Proof.KernelLoss.lean ====
/-
  The kernel program computes the loss.

  After its region has left every sample's total in a one-column array, the program sums that column over both axes from
  zero, divides by 4096, adds the constant 8192 · log 2π and halves: the first arrangement of the loss.  The sum over the
  4096 × 1 indices of the column is the sum over the 4096 samples.
-/
import proofs.«119276_j13700945674760_2_alg».proof.Proof.Gen.KernelIdeal.Frame
import proofs.«119276_j13700945674760_2_alg».proof.Proof.RegionValue
import proofs.«119276_j13700945674760_2_alg».proof.Proof.LossSpec
import Idealize.ShloMosaic.Lib.StableHlo.Run
import Idealize.ShloMosaic.Lib.Pipeline.Value
import Idealize.ShloMosaic.PureOps.Ideal.Laws

set_option maxRecDepth 16384

noncomputable section

namespace Cert.KernelIdeal.KernelLoss

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The column's sum over both axes, from zero, is zero plus the sum of the samples' totals. -/
theorem column_sum (mu sg y : Cert.LossSpec.Table) (i : S_.Idx) :
    Host.reduceAdd (F := Ideal) (RegionValue.totals mu sg y) (constant (F := Ideal) S_ .f32 0x00000000#32)
        reducesTo_S4096x1_S_d0_1 h_S_ i
      = Ideal.ofBits .f32 0x00000000#32 + ∑ r : Fin 4096, Cert.LossSpec.total mu sg y r := by
  simp only [Host.reduceAdd, Ideal.hostReduceAdd_def]
  refine (Ideal.hostReduceAdd_total reducesTo_S4096x1_S_d0_1 (fun b => b.elim0) _ _ i).trans ?_
  refine congrArg₂ (· + ·) rfl ?_
  rw [sum_idx2]
  refine Finset.sum_congr rfl fun r _ => ?_
  rw [Fin.sum_univ_one]
  rfl

/-- The lines after the region, applied to the column of totals, give the loss. -/
theorem tail_loss (mu sg y : Cert.LossSpec.Table) (i : S_.Idx) :
    mulf (constant (F := Ideal) S_ .f32 0x3F000000#32)
      (addf (mulf (constant (F := Ideal) S_ .f32 0x46000000#32) (Host.log (constant (F := Ideal) S_ .f32 0x40C90FDB#32)))
        (Host.divf (Host.reduceAdd (F := Ideal) (RegionValue.totals mu sg y) (constant (F := Ideal) S_ .f32 0x00000000#32)
            reducesTo_S4096x1_S_d0_1 h_S_)
          (constant (F := Ideal) S_ .f32 0x45800000#32))) i
      = Cert.LossSpec.loss mu sg y i := by
  show Ideal.ofBits .f32 0x3F000000#32 * (Ideal.ofBits .f32 0x46000000#32 * Ideal.log (Ideal.ofBits .f32 0x40C90FDB#32)
      + Ideal.div (Host.reduceAdd (F := Ideal) (RegionValue.totals mu sg y) (constant (F := Ideal) S_ .f32 0x00000000#32)
          reducesTo_S4096x1_S_d0_1 h_S_ i) (Ideal.ofBits .f32 0x45800000#32)) = _
  rw [column_sum]
  exact Cert.LossSpec.kernel_form mu sg y i

/-- What the lines after the region find in the result array: every sample's total. -/
theorem region_array (c : Dev nD) :
    Pipeline.withArrays (cfgs 0).spec c (V0 m c) (fun w => (dats m 0 c).arrAt w (cfgs 0).N) (Proc.devRef .tc main_v0)
      = RegionValue.totals (m ((c : Thread nD τ).loc main_arg0)) (m ((c : Thread nD τ).loc main_arg1))
          (m ((c : Thread nD τ).loc main_arg2)) :=
  (Pipeline.withArrays_arr spec0 launch0.win.arr_inj c _ _ 3).trans (RegionValue.region_result m c)

/-- The program's result buffer after the lines that follow the region: the loss of the three arguments. -/
theorem kernel_loss (c : Dev nD) :
    Pipeline.afterTail₀ cfgs (dats m) 0 (V0 m) [hostOps1] c main_v6
      = Cert.LossSpec.loss (m ((c : Thread nD τ).loc main_arg0)) (m ((c : Thread nD τ).loc main_arg1))
          (m ((c : Thread nD τ).loc main_arg2)) := by
  unfold Pipeline.afterTail₀
  show StableHlo.after hostOps1 _ (Proc.devRef .tc main_v6) = _
  after_results
  rw [region_array m c]
  exact funext fun i => tail_loss _ _ _ i

/-- The result buffer is none of the region's arrays. -/
theorem result_rest : main_v6 ∈ Pipeline.restRefs sig (cfgs 0).spec :=
  Pipeline.mem_restRefs_of main_v6 rfl (fun w => by fin_cases w <;> decide)

/-- Every execution of the kernel program ends with the loss of its arguments in the result buffer and the arguments
    unchanged. -/
theorem run : θ_run defs (onTc (τ := τ) (main (F := Ideal))) ⟨m, fun _ => 0, ρ⟩ fun r => ∀ c : Dev nD,
      r.2.mem ((c.tc : Thread nD τ).loc main_v6)
        = Cert.LossSpec.loss (m ((c : Thread nD τ).loc main_arg0)) (m ((c : Thread nD τ).loc main_arg1))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v6 result_rest).trans (kernel_loss m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KernelLoss

end
-- ==== Proof.LibIndexSums.lean ====
import Idealize.ShloMosaic.Lib.ValueIdx

/-! # Sums over the index set of an array as iterated sums over its coordinates

The index set of a rank-1 array `[n]` is `Fin n` through `ix1`, and the index set of a rank-3 array `[n0, n1, n2]` is
`Fin n0 × Fin n1 × Fin n2` through `ix3`, so a sum over every index of the array is the sum over the coordinate, or
the triple sum over the three coordinates, and the array has `n0 · n1 · n2` indices. Generic in the extents and in the
commutative monoid summed in. (The rank-2 form is the library's `ValueIdx.sum_idx2`.) -/

noncomputable section

namespace Cert.IndexSums

open Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {A : Type*} [AddCommMonoid A] {n : Nat} (f : (⟨1, ![n]⟩ : Shape).Idx → A) : ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {A : Type*} [AddCommMonoid A] {n0 n1 n2 : Nat} (f : (⟨3, ![n0, n1, n2]⟩ : Shape).Idx → A) :
    ∑ q, f q = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-3 array has as many indices as the product of its extents. -/
theorem card_idx3 {n0 n1 n2 : Nat} : (Finset.univ : Finset (⟨3, ![n0, n1, n2]⟩ : Shape).Idx).card = n0 * (n1 * n2) := by
  rw [Finset.card_univ, Fintype.card_congr (idxEquiv3 (n0 := n0) (n1 := n1) (n2 := n2))]
  simp [Fintype.card_prod]

end Cert.IndexSums

end
-- ==== Proof.ReferenceLoss.lean ====
/-
  The reference program computes the loss.

  Read one operation at a time, the reference's result at its one index is: minus the quotient by 4096 of the sum, over the
  4096 samples r and from zero, of -1/2 times ((8192 · log 2π + Σ_k log σ(r,k)) + Σ_k (y(r,k) - μ(r,k))² / σ(r,k)), each
  inner sum over the 8192 features and from zero.  That is the second arrangement of the loss, equal to it when the three
  arrays hold real numbers.
-/
import proofs.«119276_j13700945674760_2_alg».proof.Proof.Gen.ReferenceIdeal.Read
import proofs.«119276_j13700945674760_2_alg».proof.Proof.LossSpec
import proofs.«119276_j13700945674760_2_alg».proof.Proof.LibIndexSums

noncomputable section

namespace Cert.ReferenceIdeal.RefLoss

open Idealize.ShloMosaic Idealize.ShloMosaic.ValueIdx Cert.ReferenceIdeal Cert.ReferenceIdeal.Read

/-- Above sample r, feature k of the quotients' reduction is entry (r, k). -/
theorem quot_idx (r : Fin 4096) (k : Fin 8192) : idx_main_v4 (ix1 r) k = ix2 r k :=
  funext fun a => Fin.ext (by match a with | ⟨0, _⟩ => rfl | ⟨1, _⟩ => rfl)

/-- Above sample r, feature k of the logarithms' reduction is entry (r, k). -/
theorem log_idx (r : Fin 4096) (k : Fin 8192) : idx_main_v6 (ix1 r) k = ix2 r k :=
  funext fun a => Fin.ext (by match a with | ⟨0, _⟩ => rfl | ⟨1, _⟩ => rfl)

/-- The reference's result is the loss of its three arguments, when they hold real numbers. -/
theorem reference_loss (x0 x1 x2 : (⟨S4096x8192, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal)) :
    val_main_v15 (F := Ideal) x0 x1 x2 = Cert.LossSpec.loss x0 x1 x2 := by
  funext i
  rw [val_main_v15_apply, val_main_v14_apply, val_main_v13_apply, Cert.IndexSums.sum_idx1]
  simp only [val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply, val_main_cst_apply, val_main_cst_0_apply, val_main_cst_1_apply,
    val_main_cst_2_apply, val_main_cst_3_apply, val_main_cst_4_apply, val_main_cst_5_apply, quot_idx, log_idx,
    Ideal.ofBits_def, Ideal.addf_def, Ideal.subf_def, Ideal.mulf_def, Ideal.hostDivf_def, Ideal.hostUnary_log_def,
    Ideal.hostNegf_def, Ideal.negf_def]
  exact Cert.LossSpec.reference_form x0 x1 x2 h0 h1 h2 i

end Cert.ReferenceIdeal.RefLoss

end
-- ==== Proof.LibFiniteInputs.lean ====
/-
  Finite inputs are real numbers.

  A certificate's usual precondition says of each float argument x that all(|x| < +∞). It prints as a reduction by
  "and", over every axis and from the constant 1, of the comparison of |x| with a broadcast of the word 0x7F800000. On
  the extended reals |x| is max x (-x), that word is ⊤, and the comparison is the linear order's: so when the reduction
  is 1 at its one index, every entry x has max x (-x) < ⊤, which excludes x = ⊤ directly and x = ⊥ through -⊥ = ⊤, and
  what is left is a real number. Generic in the argument's shape and in the axes of the reduction.
-/
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws

noncomputable section

open Idealize.ShloMosaic Idealize.ShloMosaic.ValueIdx

namespace Cert.LibFiniteInputs

/-- The rank-0 shape has one index. -/
instance : Subsingleton (⟨0, ![]⟩ : Shape).Idx := ⟨fun a b => funext fun d => d.elim0⟩

/-- The word 0x7F800000 read as an f32 is +∞. -/
theorem ofBits_inf_f32 : Ideal.ofBits .f32 0x7F800000#32 = ⊤ := by simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One argument's part of the precondition: if all(|x| < +∞), printed as the reduce by and over all axes of the
    comparison of |x| with the broadcast +∞ word, is 1 at the one index, every entry of x is a real number. -/
theorem real_of_all_finite {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel)
    (h : Host.reduce IntOp.andi
          (cmpf .olt (Host.absf x) (broadcastInDim S ![] hb (constant (⟨0, ![]⟩ : Shape) .f32 0x7F800000#32)))
          (constantI (⟨0, ![]⟩ : Shape) 1 1#1) hr hu ix0 = 1#1) :
    ∀ i, ∃ r : ℝ, x i = (r : EReal) := by
  intro i
  have e := Host.reduce_andi_all _ _ hr hu ix0 h i
  have e' : Ideal.cmp .olt (max (x i) (-(x i))) ⊤ = 1#1 := by
    rw [← ofBits_inf_f32]; exact e
  refine real_of_abs_lt_top (x i) ?_
  simp only [Ideal.cmp] at e'
  by_contra hc
  simp [hc] at e'

end Cert.LibFiniteInputs

end
-- ==== Proof.InputsReal.lean ====
/-
  The precondition, read back: the three arrays hold real numbers.

  The precondition is the conjunction, for each of the three arrays x, of all(|x| < +∞).  At the one index of the rank-0
  result the conjunction being 1 gives each conjunct 1, and each conjunct says every entry of its array is a real number.
-/
import proofs.«119276_j13700945674760_2_alg».proof.Pre_finite_inputs
import proofs.«119276_j13700945674760_2_alg».proof.Proof.LibFiniteInputs
import Idealize.ShloMosaic.Lib.Affine

noncomputable section

namespace Cert.InputsReal

open Idealize.ShloMosaic Idealize.ShloMosaic.ValueIdx Cert.Pre_finite_inputs

/-- Under the precondition every entry of each of the three arrays is a real number. -/
theorem inputs_real [Cert.Pre_finite_inputs.Facts] (x0 x1 x2 : FVec Ideal S4096x8192 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨Cert.LibFiniteInputs.real_of_all_finite x0 _ _ _ h0', Cert.LibFiniteInputs.real_of_all_finite x1 _ _ _ h1,
    Cert.LibFiniteInputs.real_of_all_finite x2 _ _ _ h2⟩

end Cert.InputsReal

end
-- ==== Proof.lean ====
/-
  The mean negative log-likelihood of a diagonal Gaussian, computed two ways, is one extended real.

  Inputs: means μ, variances σ and observations y, each 4096 samples by 8192 features.  Entry by entry the term is
  (y - μ)² / σ + log σ; a sample's total T r is the term summed over the features; with c = 8192 · log 2π the loss is
  1/2 · (c + (Σ_r T r) / 4096).

  The kernel program tiles the samples into 16 blocks of 256, computes each block's totals in one pass (the two parts of
  the term added before the sum), and finishes on the whole column: sum, divide by 4096, add c, halve.  The reference sums
  the quotients and the logarithms of a sample separately, forms -1/2 · ((c + Σ log σ) + Σ quotient), and returns minus the
  mean of those.

  Per sample the two agree by associativity and commutativity of addition alone.  The outer step carries a negative
  factor through a sum and a sign through a quotient, which is sound on the extended reals only if +∞ and -∞ never
  meet; they do not, because for real inputs a term is a real number or -∞, never +∞ (a vanishing or negative variance
  sends the logarithm to -∞, which absorbs whatever the quotient is).  This is where the precondition, that the inputs are
  finite, is used.

  The kernel's frames and the reference's run are the generated ones; the idealization rewrote nothing, so that claim is
  trivially true.
-/
import proofs.«119276_j13700945674760_2_alg».proof.Defs
import proofs.«119276_j13700945674760_2_alg».proof.Proof.Gen.Kernel
import proofs.«119276_j13700945674760_2_alg».proof.Proof.Gen.Kernel.Skeleton
import proofs.«119276_j13700945674760_2_alg».proof.Proof.Gen.Kernel.Launch
import proofs.«119276_j13700945674760_2_alg».proof.Proof.Gen.Kernel.Points
import proofs.«119276_j13700945674760_2_alg».proof.Proof.Gen.Kernel.Frame
import proofs.«119276_j13700945674760_2_alg».proof.Proof.Gen.KernelIdeal
import proofs.«119276_j13700945674760_2_alg».proof.Proof.Gen.KernelIdeal.Skeleton
import proofs.«119276_j13700945674760_2_alg».proof.Proof.Gen.KernelIdeal.Launch
import proofs.«119276_j13700945674760_2_alg».proof.Proof.Gen.KernelIdeal.Points
import proofs.«119276_j13700945674760_2_alg».proof.Proof.Gen.KernelIdeal.Frame
import proofs.«119276_j13700945674760_2_alg».proof.Proof.Gen.ReferenceIdeal
import proofs.«119276_j13700945674760_2_alg».proof.Proof.Gen.Pre_finite_inputs
import proofs.«119276_j13700945674760_2_alg».proof.Proof.Gen.ReferenceIdeal.Run
import proofs.«119276_j13700945674760_2_alg».proof.Proof.Gen.ReferenceIdeal.Read
import Idealize.ShloMosaic.Adequacy
import Idealize.ShloMosaic.Init
import proofs.«119276_j13700945674760_2_alg».proof.Proof.KernelLoss
import proofs.«119276_j13700945674760_2_alg».proof.Proof.ReferenceLoss
import proofs.«119276_j13700945674760_2_alg».proof.Proof.InputsReal

noncomputable section

namespace Cert.Proof

open Idealize.ShloMosaic Idealize.ShloMosaic.TcCoe Idealize.SL.Sem

/-- The kernel program as printed terminates without fault and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference's run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the loss of the shared arguments in their result buffers. -/
theorem algebraic : Cert.algebraic_KernelIdeal_ReferenceIdeal := by
  intro m ρ m' ρ' hpre hagree
  refine ⟨fun c => Cert.LossSpec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelLoss.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.InputsReal.inputs_real _ _ _ (hpre c)
  rw [Cert.ReferenceIdeal.Read.val_main_v15_eq, (hagree c).1, (hagree c).2.1, (hagree c).2.2]
  exact Cert.ReferenceIdeal.RefLoss.reference_loss _ _ _ h0 h1 h2

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
